-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x1 : Shape := ⟨2, ![100000, 1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S100000x1 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S100000x1 : Shape := ⟨2, ![100000, 1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 24
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x1, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x1 : Shape := ⟨2, ![100000, 1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x1, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  The graph-convolution layer both programs compute, as one function of its arrays, entry by entry on the
  extended reals. With `agg` the neighbourhood sums (row `r` of `agg` is the sum of the feature rows of the
  sources of the edges that end at node `r`), `x` the node features, `deg` the degree column, `W` the weights and
  `b` the bias, entry `(r, c)` of the result is

      tanh ( ( ∑ₖ (agg (r, k) + x (r, k)) · W (k, c)  +  b c ) / deg (r, 0) ).

  Row `r` of the result depends on row `r` of `agg`, of `x` and of `deg` only, and on all of `W` and `b`: that is
  what lets the rows be computed in independent blocks.
-/
import Idealize.ShloMosaic.PureOps.Ideal
import Idealize.ShloMosaic.Lib.ValueIdx

noncomputable section

open scoped BigOperators

namespace Cert.Proof.Layer

open Idealize.ShloMosaic Idealize.ShloMosaic.ValueIdx

/-- Entry `(r, c)` of the layer: the residual sum `agg + x` times the weights, plus the bias, divided by the
    node's degree, through `tanh`. -/
def layer (agg x : (⟨2, ![100000, 128]⟩ : Shape).Idx → EReal) (deg : (⟨2, ![100000, 1]⟩ : Shape).Idx → EReal)
    (W : (⟨2, ![128, 128]⟩ : Shape).Idx → EReal) (b : (⟨1, ![128]⟩ : Shape).Idx → EReal) :
    (⟨2, ![100000, 128]⟩ : Shape).Idx → EReal :=
  fun i => Ideal.tanh (Ideal.div
    ((∑ k : Fin 128, (agg (ix2 (i 0) k) + x (ix2 (i 0) k)) * W (ix2 k (i 1))) + b (ix1 (i 1)))
    (deg (ix2 (i 0) (0 : Fin 1))))

/-- The layer at the index with coordinates `(r, c)`. -/
theorem layer_apply (agg x : (⟨2, ![100000, 128]⟩ : Shape).Idx → EReal) (deg : (⟨2, ![100000, 1]⟩ : Shape).Idx → EReal)
    (W : (⟨2, ![128, 128]⟩ : Shape).Idx → EReal) (b : (⟨1, ![128]⟩ : Shape).Idx → EReal) (r : Fin 100000) (c : Fin 128) :
    layer agg x deg W b (ix2 r c) = Ideal.tanh (Ideal.div
      ((∑ k : Fin 128, (agg (ix2 r k) + x (ix2 r k)) * W (ix2 k c)) + b (ix1 c)) (deg (ix2 r (0 : Fin 1)))) := rfl

end Cert.Proof.Layer

end
-- ==== Proof.RefLayer.lean ====
/-
  The reference program's result is the layer of its neighbourhood sums. After the gather and the scatter-add
  have produced the sums `agg`, the reference adds the features, multiplies by the weights (a `dot_general`
  with one contracted axis, a sum over the 128 features at the extended reals), adds the bias repeated down the rows,
  divides by the degree column repeated across the lanes and applies `tanh`: read at `(r, c)` that is the
  layer's entry, operation by operation.
-/
import proofs.«107304_j23605140259236_1_alg».proof.Proof.Gen.ReferenceIdeal.Read
import proofs.«107304_j23605140259236_1_alg».proof.Proof.Layer

noncomputable section

open scoped BigOperators

namespace Cert.Proof.RefLayer

open Idealize.ShloMosaic Idealize.ShloMosaic.ValueIdx Cert.ReferenceIdeal Cert.ReferenceIdeal.Read Cert.Proof.Layer

/-- The reference's last stage, as a function of the argument arrays, is the layer of its scatter-add stage. -/
theorem result_eq_layer (x0 : (⟨S100000x128, .f32⟩ : BufTy).Contents (Elt Ideal))
    (x1 : (⟨S2x1600000, .i32⟩ : BufTy).Contents (Elt Ideal)) (x2 : (⟨S100000x1, .f32⟩ : BufTy).Contents (Elt Ideal))
    (x3 : (⟨S128x128, .f32⟩ : BufTy).Contents (Elt Ideal)) (x4 : (⟨S128, .f32⟩ : BufTy).Contents (Elt Ideal)) :
    val_main_v21 (F := Ideal) x0 x1 x2 x3 x4 = layer (val_main_v13 (F := Ideal) x0 x1) x0 x2 x3 x4 := by
  funext i
  obtain ⟨r, c, rfl⟩ : ∃ (r : Fin 100000) (c : Fin 128), i = ix2 r c := ⟨i 0, i 1, eq_ix2 i⟩
  have el : ∀ k : Fin 128, lidx_main_v15 (ix2 r c) k = ix2 r k := fun k => funext fun a => Fin.ext (by
    match a with | ⟨0, _⟩ => rfl | ⟨1, _⟩ => rfl)
  have er : ∀ k : Fin 128, ridx_main_v15 (ix2 r c) k = ix2 k c := fun k => funext fun a => Fin.ext (by
    match a with | ⟨0, _⟩ => rfl | ⟨1, _⟩ => rfl)
  have eb : idx_main_v16 (idx_main_v17 (ix2 r c)) = ix1 c := funext fun a => Fin.ext (by
    match a with | ⟨0, _⟩ => rfl)
  have ed : idx_main_v19 (ix2 r c) = ix2 r (0 : Fin 1) := funext fun a => Fin.ext (by
    match a with | ⟨0, _⟩ => rfl | ⟨1, _⟩ => rfl)
  rw [layer_apply, val_main_v21_apply, val_main_v20_apply, val_main_v18_apply, val_main_v15_apply, val_main_v17_apply,
    val_main_v16_apply, val_main_v19_apply]
  have h14 : val_main_v14 (F := Ideal) x0 x1 = fun j => val_main_v13 (F := Ideal) x0 x1 j + x0 j := rfl
  rw [h14, eb, ed]
  generalize val_main_v13 (F := Ideal) x0 x1 = A
  refine congrArg Ideal.tanh (congrArg (fun s => Ideal.div (s + x4 (ix1 c)) (x2 (ix2 r (0 : Fin 1))))
    (Finset.sum_congr rfl fun k _ => ?_))
  rw [el k, er k]

end Cert.Proof.RefLayer

end
-- ==== Proof.HostPrefix.lean ====
/-
  The two arrays the kernel program computes on the host before it launches the body. The neighbourhood sums:
  the edge list's first row names each edge's source and its second row its end; a negative source index is
  wrapped by adding the node count; the feature rows of the sources are gathered, one row per edge, and added
  into a zero array at the rows the ends name. The bias as a row: the 128 bias entries re-laid as a [1, 128] array.
  Both are read back from the straight line of host operations as one term of the argument arrays, and the sums are
  the very term the reference program computes for its own sums.
-/
import proofs.«107304_j23605140259236_1_alg».proof.Proof.Gen.KernelIdeal.Frame
import proofs.«107304_j23605140259236_1_alg».proof.Proof.Gen.ReferenceIdeal.Read
import Idealize.ShloMosaic.Lib.StableHlo.Run
import Idealize.ShloMosaic.Lib.Pipeline.Value
import Idealize.ShloMosaic.Lib.ValueIdx

noncomputable section

namespace Cert.Proof.HostPrefix

open Idealize.ShloMosaic Idealize.ShloMosaic.TcCoe Idealize.SL.Sem Idealize.ShloMosaic.ValueIdx
open Cert.KernelIdeal Cert.KernelIdeal.Gen

variable {F : FTy → Type} [FloatOps F]

/-- The neighbourhood sums as the kernel program's host operations compute them from the features `x0` and the
    edge list `x1`. -/
def sums (x0 : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (Host.gather gather_S100000x128_S1600000x1_S1600000x128_1_0_n_n_0_1_1128 (x0) (broadcastInDim S1600000x1 ![0] bcast_S1600000_S1600000x1_0 (select (cmpi .slt (shapeCast _ (extractStridedSlice S1x1600000 ![0, 0] (x1) slices_S2x1600000_S1x1600000_0_0) shapeCasts_S1x1600000_S1600000) (broadcastInDim S1600000 ![] bcast_S_S1600000 (constantI S_ 32 0#32))) (addi (shapeCast _ (extractStridedSlice S1x1600000 ![0, 0] (x1) slices_S2x1600000_S1x1600000_0_0) shapeCasts_S1x1600000_S1600000) (broadcastInDim S1600000 ![] bcast_S_S1600000 (constantI S_ 32 100000#32))) (shapeCast _ (extractStridedSlice S1x1600000 ![0, 0] (x1) slices_S2x1600000_S1x1600000_0_0) shapeCasts_S1x1600000_S1600000))))

variable (m : (ℓ : Loc nD τ sig) → Buf (Elt F) ℓ)

/-- When the body is launched, the first operand's array holds the sums of the launch-time features and edge list. -/
theorem entry_sums (c : Dev nD) :
    (V m c main_v13 : S100000x128.Idx → Elt F .f32)
      = sums (m ((c.tc : Thread nD τ).loc main_arg0)) (m ((c.tc : Thread nD τ).loc main_arg1)) := by
  dsimp only [V, hostOps0]
  after_results
  rfl

/-- When the body is launched, the fifth operand's array holds the bias re-laid as one row. -/
theorem entry_bias (c : Dev nD) :
    (V m c main_v14 : S1x128.Idx → Elt F .f32)
      = shapeCast S1x128 (m ((c.tc : Thread nD τ).loc main_arg4) : S128.Idx → Elt F .f32) shapeCasts_S128_S1x128 := by
  dsimp only [V, hostOps0]
  after_results
  rfl

/-- The bias row's entry `(0, c)` is the bias's entry `c`. -/
theorem bias_row_apply (b : S128.Idx → Elt F .f32) (c : Fin 128) :
    shapeCast S1x128 b shapeCasts_S128_S1x128 (ix2 (0 : Fin 1) c) = b (ix1 c) :=
  shapeCast_apply b shapeCasts_S128_S1x128 (ix2 (0 : Fin 1) c) (ix1 c)
    (by rewrite [Shape.rowMajor_val_two, Shape.rowMajor_val_one]; show c.val = 0 * 128 + c.val; omega)

/-- The kernel program's sums and the reference program's are one term of the features and the edge list. -/
theorem sums_eq_reference (x0 : (⟨S100000x128, .f32⟩ : BufTy).Contents (Elt F)) (x1 : (⟨S2x1600000, .i32⟩ : BufTy).Contents (Elt F)) :
    sums x0 x1 = Cert.ReferenceIdeal.Read.val_main_v13 (F := F) x0 x1 := rfl

end Cert.Proof.HostPrefix

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.BodyValue.lean ====
/-
  What one call of the kernel body stores, read at one entry. The body loads a block of 5000 rows of the
  neighbourhood sums `a`, of the features `x` and of the degree column `d`, all of the weights `w` and the bias
  row `b`, and stores `tanh (((a + x) · w + b) / d)`. The two changes of float format before the product are the
  identity on the extended reals, the product accumulates into zero with the plain dimension numbers, the bias row
  is repeated down the rows and the degree column across the lanes. So entry `(r, c)` of the stored block is

      tanh ( ( ∑ₖ (a (r, k) + x (r, k)) · w (k, c)  +  b (0, c) ) / d (r, 0) ).
-/
import proofs.«107304_j23605140259236_1_alg».proof.Proof.Gen.KernelIdeal.Skeleton
import proofs.«107304_j23605140259236_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.Proof.BodyValue

open Idealize.ShloMosaic Idealize.ShloMosaic.ValueIdx Cert.KernelIdeal Cert.KernelIdeal.Gen

/-- The product's dimension numbers are the plain ones: rows by contraction times contraction by columns. -/
theorem dims_plain : dot_S5000x128_S128x128_S5000x128_1_0_0_1_n_n = DotDims.plain 5000 128 128 := rfl

/-- The bias row repeated down the 5000 rows, read at `(r, c)`, is the row's entry `c`. -/
theorem bias_rows (b : Vec Ideal S1x128 .f32) (r : Fin 5000) (c : Fin 128) :
    broadcastTo S5000x128 (shapeCast S1x128 b shapeCasts_S1x128_S1x128) broadcasts_S1x128_S5000x128 (ix2 r c)
      = b (ix2 (0 : Fin 1) c) := by
  rw [shapeCast_self]
  exact broadcastTo_apply b broadcasts_S1x128_S5000x128 (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])

/-- The degree column repeated across the 128 lanes, read at `(r, c)`, is the column's entry `r`. -/
theorem deg_lanes (d : Vec Ideal S5000x1 .f32) (r : Fin 5000) (c : Fin 128) :
    broadcastTo S5000x128 d broadcasts_S5000x1_S5000x128 (ix2 r c) = d (ix2 r (0 : Fin 1)) :=
  broadcastTo_apply d broadcasts_S5000x1_S5000x128 (ix2 r c) (ix2 r (0 : Fin 1)) (fun a => match a with
    | ⟨0, _⟩ => by show r.val = if (5000 : Nat) = 1 then 0 else r.val; rw [if_neg (by decide)]
    | ⟨1, _⟩ => by show 0 = if (1 : Nat) = 1 then 0 else c.val; rw [if_pos rfl])

/-- The product of the residual sum with the weights, read at `(r, c)`: the format changes are the identity, the
    accumulator is zero, and the contraction runs over the 128 features. -/
theorem product_apply (a x : Vec Ideal S5000x128 .f32) (w : Vec Ideal S128x128 .f32) (r : Fin 5000) (c : Fin 128) :
    matmul (F := Ideal) dot_S5000x128_S128x128_S5000x128_1_0_0_1_n_n none
        (truncf .bf16 (addf (shapeCast S5000x128 a shapeCasts_S5000x128_S5000x128) x) bitsLt_bf16_f32)
        (truncf .bf16 w bitsLt_bf16_f32) (constant S5000x128 .f32 0x00000000#32) (ix2 r c)
      = ∑ k : Fin 128, (a (ix2 r k) + x (ix2 r k)) * w (ix2 k c) := by
  rw [shapeCast_self]
  exact PlainDot.matmul_plain_zero (M := 5000) (K := 128) (N := 128) none (fun i => a i + x i) w (ix2 r c)

/-- Entry `(r, c)` of the block the body stores. -/
theorem stored_apply (a x : Vec Ideal S5000x128 .f32) (w : Vec Ideal S128x128 .f32) (b : Vec Ideal S1x128 .f32)
    (d : Vec Ideal S5000x1 .f32) (r : Fin 5000) (c : Fin 128) :
    k0_pay1 (F := Ideal) a x w b d (ix2 r c)
      = Ideal.tanh (Ideal.div ((∑ k : Fin 128, (a (ix2 r k) + x (ix2 r k)) * w (ix2 k c)) + b (ix2 (0 : Fin 1) c))
          (d (ix2 r (0 : Fin 1)))) := by
  unfold k0_pay1
  exact congrArg Ideal.tanh (congrArg₂ Ideal.div
    (congrArg₂ (· + ·) (product_apply a x w r c) (bias_rows b r c)) (deg_lanes d r c))

end Cert.Proof.BodyValue

end
-- ==== Proof.KernelValue.lean ====
/-
  The kernel program's result array is the layer of the launch-time arrays. The grid has 20 points; point `t`
  works on rows `5000 t … 5000 t + 4999`: its blocks of the neighbourhood sums, of the features, of the degree column
  and of the result are those rows, and it sees all of the weights and of the bias row at every point. What the
  body stores at `(r, c)` of its block (the stored block read at an entry) is therefore the layer's entry
  `(5000 t + r, c)`; each point writes its block back, the 20 row blocks cover the 100000 rows, and so the whole
  result array ends holding the layer.
-/
import proofs.«107304_j23605140259236_1_alg».proof.Proof.Gen.KernelIdeal.Value
import proofs.«107304_j23605140259236_1_alg».proof.Proof.BodyValue
import proofs.«107304_j23605140259236_1_alg».proof.Proof.HostPrefix
import proofs.«107304_j23605140259236_1_alg».proof.Proof.Layer
import Idealize.ShloMosaic.Lib.Pipeline.Value
import Idealize.ShloMosaic.Lib.ValueIdx

noncomputable section

open scoped BigOperators

namespace Cert.Proof.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Proof.Layer

/-! ## One block against the whole arrays -/

/-- If the loaded blocks are rows `R r` of the whole arrays (and all of the weights and of the bias), the stored
    block's entry `(r, c)` is the layer's entry `(R r, c)`. -/
theorem block_layer (a x : Vec Ideal S5000x128 .f32) (w : Vec Ideal S128x128 .f32) (b : Vec Ideal S1x128 .f32)
    (d : Vec Ideal S5000x1 .f32) (A X : S100000x128.Idx → EReal) (D : S100000x1.Idx → EReal)
    (Wt : S128x128.Idx → EReal) (B : S128.Idx → EReal) (R : Fin 5000 → Fin 100000)
    (ha : ∀ r k, a (ix2 r k) = A (ix2 (R r) k)) (hx : ∀ r k, x (ix2 r k) = X (ix2 (R r) k))
    (hd : ∀ r, d (ix2 r (0 : Fin 1)) = D (ix2 (R r) (0 : Fin 1))) (hw : ∀ k c, w (ix2 k c) = Wt (ix2 k c))
    (hb : ∀ c, b (ix2 (0 : Fin 1) c) = B (ix1 c)) (r : Fin 5000) (c : Fin 128) :
    k0_pay1 (F := Ideal) a x w b d (ix2 r c) = layer A X D Wt B (ix2 (R r) c) := by
  rw [BodyValue.stored_apply, layer_apply]
  simp only [ha, hx, hd, hw, hb]

/-! ## The grid's blocks -/

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 20 grid points: the row-blocked windows are at block `(t, 0)`, the weights and
    the bias row always at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Row `r` of point `t`'s blocks is row `5000 t + r` of the arrays. -/
def row (t : Fin cfg0.N) (r : Fin 5000) : Fin 100000 :=
  ⟨t.val * 5000 + r.val, by have := point_lt t; have := r.isLt; omega⟩

/-- Point `t`'s block of an array `X` of the neighbourhood sums' shape, read at `(r, k)`, is `X` at row `5000 t + r`. -/
theorem rows_of_sums (c : Dev nD) (X : Buf (Elt Ideal) ((c.tc : Thread nD τ).loc main_v13)) (t : Fin cfg0.N) (r : Fin 5000) (k : Fin 128) :
    ((cfg0.win 0).blk t).view.read (Elt Ideal) X (ix2 r k) = X (ix2 (row t r) k) := by
  obtain ⟨e0, e1, -⟩ := block_indices t
  rw [View.read_apply]
  refine congrArg X (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- Point `t`'s block of the neighbourhood sums. -/
theorem sums_block (c : Dev nD) (t : Fin cfg0.N) (r : Fin 5000) (k : Fin 128) :
    (iblk m c 0 t : Vec Ideal S5000x128 .f32) (ix2 r k)
      = HostPrefix.sums (m ((c.tc : Thread nD τ).loc main_arg0)) (m ((c.tc : Thread nD τ).loc main_arg1)) (ix2 (row t r) k) :=
  (rows_of_sums c (V m c main_v13) t r k).trans (congrFun (HostPrefix.entry_sums m c) (ix2 (row t r) k))

/-- Point `t`'s block of the features. -/
theorem features_block (c : Dev nD) (t : Fin cfg0.N) (r : Fin 5000) (k : Fin 128) :
    (iblk m c 1 t : Vec Ideal S5000x128 .f32) (ix2 r k)
      = (m ((c.tc : Thread nD τ).loc main_arg0) : S100000x128.Idx → EReal) (ix2 (row t r) k) := by
  obtain ⟨-, -, e0, e1, -⟩ := block_indices t
  rw [← V_main_arg0 m c]
  unfold iblk
  rw [View.read_apply]
  show V m c main_arg0 _ = V m c main_arg0 _
  refine congrArg (V m c main_arg0) (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 128 + 1 * k.val = k.val; rw [e1]; omega

/-- Point `t`'s block of the degree column. -/
theorem degree_block (c : Dev nD) (t : Fin cfg0.N) (r : Fin 5000) :
    (iblk m c 2 t : Vec Ideal S5000x1 .f32) (ix2 r (0 : Fin 1))
      = (m ((c.tc : Thread nD τ).loc main_arg2) : S100000x1.Idx → EReal) (ix2 (row t r) (0 : Fin 1)) := by
  obtain ⟨-, -, -, -, e0, e1, -⟩ := block_indices t
  rw [← V_main_arg2 m c]
  unfold iblk
  rw [View.read_apply]
  show V m c main_arg2 _ = V m c main_arg2 _
  refine congrArg (V m c main_arg2) (funext fun a => Fin.ext ?_)
  match a with
  | ⟨0, _⟩ => show win0_2.index t (0 : Fin 2) * 5000 + 1 * r.val = t.val * 5000 + r.val; rw [e0]; omega
  | ⟨1, _⟩ => show win0_2.index t (1 : Fin 2) * 1 + 1 * 0 = 0; rw [e1]

/-- Every point's block of the weights is all of them. -/
theorem weights_block (c : Dev nD) (t : Fin cfg0.N) (k : Fin 128) (j : Fin 128) :
    (iblk m c 3 t : Vec Ideal S128x128 .f32) (ix2 k j)
      = (m ((c.tc : Thread nD τ).loc main_arg3) : S128x128.Idx → EReal) (ix2 k j) := by
  obtain ⟨-, -, -, -, -, -, e0, e1, -⟩ := block_indices t
  rw [← V_main_arg3 m c]
  unfold iblk
  rw [View.read_apply]
  show V m c main_arg3 _ = V m c main_arg3 _
  refine congrArg (V m c main_arg3) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- Every point's block of the bias row is the whole row, whose entry `(0, j)` is the bias's entry `j`. -/
theorem bias_block (c : Dev nD) (t : Fin cfg0.N) (j : Fin 128) :
    (iblk m c 4 t : Vec Ideal S1x128 .f32) (ix2 (0 : Fin 1) j)
      = (m ((c.tc : Thread nD τ).loc main_arg4) : S128.Idx → EReal) (ix1 j) := by
  obtain ⟨-, -, -, -, -, -, -, -, e0, e1, -⟩ := block_indices t
  rw [← HostPrefix.bias_row_apply (m ((c.tc : Thread nD τ).loc main_arg4) : S128.Idx → EReal) j, ← HostPrefix.entry_bias m c]
  unfold iblk
  rw [View.read_apply]
  show V m c main_v14 _ = V m c main_v14 _
  refine congrArg (V m c main_v14) (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-! ## The result array -/

/-- The layer of the launch-time arrays on core `c`. -/
def result (c : Dev nD) : S100000x128.Idx → EReal :=
  layer (HostPrefix.sums (m ((c.tc : Thread nD τ).loc main_arg0)) (m ((c.tc : Thread nD τ).loc main_arg1)))
    (m ((c.tc : Thread nD τ).loc main_arg0)) (m ((c.tc : Thread nD τ).loc main_arg2))
    (m ((c.tc : Thread nD τ).loc main_arg3)) (m ((c.tc : Thread nD τ).loc main_arg4))

/-- What point `t` writes back is rows `5000 t … 5000 t + 4999` of the layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := block_indices t
  rw [Cert.KernelIdeal.Value.flushed5]
  unfold out0_5
  rw [View.canon_unit_zero offsets_zero]
  simp only [View.ld_unit_zero (S := S5000x128) offsets_zero, View.ld_unit_zero (S := S128x128) offsets_zero,
    View.ld_unit_zero (S := S1x128) offsets_zero, View.ld_unit_zero (S := S5000x1) offsets_zero]
  funext j
  obtain ⟨r, cc, rfl⟩ : ∃ (r : Fin 5000) (cc : Fin 128), j = ix2 r cc := ⟨j 0, j 1, eq_ix2 j⟩
  show k0_pay1 (iblk m c 0 t) (iblk m c 1 t) (iblk m c 3 t) (iblk m c 4 t) (iblk m c 2 t) (ix2 r cc)
    = result m c (((cfg0.win 5).blk t).view.emb (ix2 r cc))
  have hemb : ((cfg0.win 5).blk t).view.emb (ix2 r cc) = ix2 (row t r) cc := by
    funext a
    apply Fin.ext
    match a with
    | ⟨0, _⟩ => show win0_5.index t (0 : Fin 2) * 5000 + 1 * r.val = t.val * 5000 + r.val; rw [e0]; omega
    | ⟨1, _⟩ => show win0_5.index t (1 : Fin 2) * 128 + 1 * cc.val = cc.val; rw [e1]; omega
  rw [hemb]
  exact block_layer (iblk m c 0 t) (iblk m c 1 t) (iblk m c 3 t) (iblk m c 4 t) (iblk m c 2 t)
    (HostPrefix.sums (m ((c.tc : Thread nD τ).loc main_arg0)) (m ((c.tc : Thread nD τ).loc main_arg1)))
    (m ((c.tc : Thread nD τ).loc main_arg0)) (m ((c.tc : Thread nD τ).loc main_arg2))
    (m ((c.tc : Thread nD τ).loc main_arg3)) (m ((c.tc : Thread nD τ).loc main_arg4)) (row t)
    (sums_block m c t) (features_block m c t) (degree_block m c t) (weights_block m c t) (bias_block m c t) r cc

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- Row `i₀` of the result array lies in the block of point `i₀ / 5000`, and every point writes back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hq : (i 0).val / 5000 < cfg0.N := lt_of_lt_of_eq (by omega : (i 0).val / 5000 < 20) N_0.symm
  obtain ⟨-, -, -, -, -, -, -, -, -, -, e0, e1⟩ := block_indices ⟨(i 0).val / 5000, hq⟩
  refine ⟨⟨(i 0).val / 5000, hq⟩, flush0_5 _, ?_⟩
  rw [mem_block]
  intro a
  match a with
  | ⟨0, _⟩ =>
    show win0_5.index ⟨(i 0).val / 5000, hq⟩ (0 : Fin 2) * 5000 ≤ (i 0).val
      ∧ (i 0).val < win0_5.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hq⟩ (1 : Fin 2) * 128 ≤ (i 1).val
      ∧ (i 1).val < win0_5.index ⟨(i 0).val / 5000, hq⟩ (1 : Fin 2) * 128 + 128
    rw [e1]
    omega

/-- The result array after the run is the layer of the launch-time arrays. -/
theorem final (c : Dev nD) : (dats m 0 c).arrAt 5 cfg0.N = result m c :=
  (dats m 0 c).arrAt_eq_of_cover 5 (result m c) (fun t _ => flushed_eq m c t) cover

/-- The run of the kernel program: it terminates with the result array at the layer and the arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩)
    (Cert.KernelIdeal.Value.run_blocks m ρ)

end Cert.Proof.KernelValue

end
-- ==== Proof.lean ====
/-
  The certificate of a graph-convolution layer: for node features `x`, an edge list, a degree column, weights `W`
  and a bias `b`, both programs compute

      tanh ( ( (agg + x) · W + b ) / deg ),     agg r = the sum of the feature rows of the sources of the edges ending at r.

  Both form `agg` on the host by the same gather and scatter-add. The reference then goes on with whole-array
  operations; the kernel program hands the rest to a body that runs on 20 blocks of 5000 rows, rounding the
  operands of the product to a narrower format on the way in, which on the extended reals changes nothing, as a
  product accumulated into zero is the host's product there. Row `r` of the layer needs row `r` of `agg`, `x` and `deg`
  only, so the row blocks compute the same entries as the whole-array operations and no algebraic law beyond
  reading each operation at an entry is needed; the inputs' finiteness is not used.

  The three frames: the two kernel programs' by the frame run of the pipeline, the reference's by its run with the
  result dropped. The idealization rewrote no operation, so there is nothing to preserve. The value claim: the
  kernel program's run ends with its result array at the layer of the launch-time arrays (the blocks' values glued
  over the grid), the reference's run at its last stage, which read at an entry is the same layer of its own
  arrays; the arrays agree, and the two spellings of `agg` are one term.
-/
import proofs.«107304_j23605140259236_1_alg».proof.Defs
import proofs.«107304_j23605140259236_1_alg».proof.Proof.Gen.Kernel
import proofs.«107304_j23605140259236_1_alg».proof.Proof.Gen.Kernel.Skeleton
import proofs.«107304_j23605140259236_1_alg».proof.Proof.Gen.Kernel.Launch
import proofs.«107304_j23605140259236_1_alg».proof.Proof.Gen.Kernel.Points
import proofs.«107304_j23605140259236_1_alg».proof.Proof.Gen.Kernel.Frame
import proofs.«107304_j23605140259236_1_alg».proof.Proof.Gen.KernelIdeal
import proofs.«107304_j23605140259236_1_alg».proof.Proof.Gen.KernelIdeal.Skeleton
import proofs.«107304_j23605140259236_1_alg».proof.Proof.Gen.KernelIdeal.Launch
import proofs.«107304_j23605140259236_1_alg».proof.Proof.Gen.KernelIdeal.Points
import proofs.«107304_j23605140259236_1_alg».proof.Proof.Gen.KernelIdeal.Frame
import proofs.«107304_j23605140259236_1_alg».proof.Proof.Gen.ReferenceIdeal
import proofs.«107304_j23605140259236_1_alg».proof.Proof.Gen.KernelIdeal.Value
import proofs.«107304_j23605140259236_1_alg».proof.Proof.Gen.ReferenceIdeal.Run
import proofs.«107304_j23605140259236_1_alg».proof.Proof.Gen.ReferenceIdeal.Read
import proofs.«107304_j23605140259236_1_alg».proof.Proof.Gen.Pre_finite_inputs
import proofs.«107304_j23605140259236_1_alg».proof.Proof.Layer
import proofs.«107304_j23605140259236_1_alg».proof.Proof.RefLayer
import proofs.«107304_j23605140259236_1_alg».proof.Proof.HostPrefix
import proofs.«107304_j23605140259236_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two programs end with the same result array: each is the layer of its own launch-time arrays, the two
    spellings of the neighbourhood sums are one term, and the launch-time arrays agree. -/
theorem algebraic : Cert.algebraic_KernelIdeal_ReferenceIdeal := by
  intro m ρ m' ρ' _ hagree
  refine ⟨fun c => Cert.Proof.KernelValue.result m c, Cert.Proof.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v21_eq, Cert.Proof.RefLayer.result_eq_layer,
    ← Cert.Proof.HostPrefix.sums_eq_reference, h0, h1, h2, h3, h4]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
